-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1000x128 : Shape := ⟨2, ![1000, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn_part1 {F : FTy → Type} [FloatOps F] (main_v13 : IVec S_ 1) (main_v15 : IVec S1000x128 1) (main_c_5 : IVec S_ 1) : IVec S_ 1 :=
  let main_v16 : IVec S_ 1 := (fun x v => Host.reduce IntOp.andi x v reducesTo_S1000x128_S_d0_1 h_S_) main_v15 main_c_5
  let main_v17 : IVec S_ 1 := andi main_v13 main_v16
  main_v17

def fn {F : FTy → Type} [FloatOps F] (main_arg0 : FVec F S32768x128 .f32) (main_arg1 : FVec F S1000x128 .f32) (main_arg2 : FVec F S1000x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_cst_4 : FVec F S_ .f32 := constant S_ .f32 0x00000000#32
  let main_v14 : FVec F S1000x128 .f32 := broadcastInDim S1000x128 ![] bcast_S_S1000x128 main_cst_4
  let main_v15 : IVec S1000x128 1 := cmpf .ogt main_arg2 main_v14
  let main_c_5 : IVec S_ 1 := constantI S_ 1 1#1
  fn_part1 (F := F) main_v13 main_v15 main_c_5
-- ==== Kernel.lean ====
abbrev S32768x128 : Shape := ⟨2, ![32768, 128]⟩
abbrev S1000x128 : Shape := ⟨2, ![1000, 128]⟩
abbrev S_ : Shape := ⟨0, ![]⟩
abbrev S1000 : Shape := ⟨1, ![1000]⟩
abbrev S128x1000 : Shape := ⟨2, ![128, 1000]⟩
abbrev S256x1000 : Shape := ⟨2, ![256, 1000]⟩
abbrev S1x1000 : Shape := ⟨2, ![1, 1000]⟩
abbrev S32768x1000 : Shape := ⟨2, ![32768, 1000]⟩
abbrev S1024x128 : Shape := ⟨2, ![1024, 128]⟩
abbrev S1024x1000 : Shape := ⟨2, ![1024, 1000]⟩
abbrev S1024x256 : Shape := ⟨2, ![1024, 256]⟩

abbrev nBuf : Space → Nat
  | .hbm => 32
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S1000x128, .f32⟩
  | .hbm, ⟨3, _⟩ => ⟨S1000x128, .f32⟩
  | .hbm, ⟨4, _⟩ => ⟨S_, .f32⟩
  | .hbm, ⟨5, _⟩ => ⟨S1000x128, .f32⟩
  | .hbm, ⟨6, _⟩ => ⟨S1000x128, .f32⟩
  | .hbm, ⟨7, _⟩ => ⟨S1000x128, .f32⟩
  | .hbm, ⟨8, _⟩ => ⟨S1000x128, .f32⟩
  | .hbm, ⟨9, _⟩ => ⟨S1000x128, .f32⟩
  | .hbm, ⟨10, _⟩ => ⟨S_, .f32⟩
  | .hbm, ⟨11, _⟩ => ⟨S1000, .f32⟩
  | .hbm, ⟨12, _⟩ => ⟨S1000x128, .f32⟩
  | .hbm, ⟨13, _⟩ => ⟨S_, .f32⟩
  | .hbm, ⟨14, _⟩ => ⟨S1000x128, .f32⟩
  | .hbm, ⟨15, _⟩ => ⟨S1000x128, .f32⟩
  | .hbm, ⟨16, _⟩ => ⟨S_, .f32⟩
  | .hbm, ⟨17, _⟩ => ⟨S1000, .f32⟩
  | .hbm, ⟨18, _⟩ => ⟨S_, .f32⟩
  | .hbm, ⟨19, _⟩ => ⟨S1000, .f32⟩
  | .hbm, ⟨20, _⟩ => ⟨S1000, .f32⟩
  | .hbm, ⟨21, _⟩ => ⟨S1000, .f32⟩
  | .hbm, ⟨22, _⟩ => ⟨S_, .f32⟩
  | .hbm, ⟨23, _⟩ => ⟨S1000x128, .f32⟩
  | .hbm, ⟨24, _⟩ => ⟨S1000x128, .f32⟩
  | .hbm, ⟨25, _⟩ => ⟨S128x1000, .f32⟩
  | .hbm, ⟨26, _⟩ => ⟨S128x1000, .bf16⟩
  | .hbm, ⟨27, _⟩ => ⟨S128x1000, .f32⟩
  | .hbm, ⟨28, _⟩ => ⟨S128x1000, .bf16⟩
  | .hbm, ⟨29, _⟩ => ⟨S256x1000, .bf16⟩
  | .hbm, ⟨30, _⟩ => ⟨S1x1000, .f32⟩
  | .hbm, ⟨31, _⟩ => ⟨S32768x1000, .f32⟩
  | .local _ .vmem, ⟨0, _⟩ => ⟨S1024x128, .f32⟩
  | .local _ .vmem, ⟨1, _⟩ => ⟨S1024x128, .f32⟩
  | .local _ .vmem, ⟨2, _⟩ => ⟨S256x1000, .bf16⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000x128 : S_.BroadcastsInDim S1000x128 (![] : Fin 0 → Fin S1000x128.rank)
  reducesTo_S1000x128_S1000_d1 : S1000x128.ReducesTo [1] S1000
  h_S_ : 0 < S_.numel
  bcast_S_S1000 : S_.BroadcastsInDim S1000 (![] : Fin 0 → Fin S1000.rank)
  transposes_S1000x128_S128x1000_1_0 : S1000x128.Transposes [1, 0] S128x1000
  bitsLt_bf16_f32 : FTy.bits .bf16 < FTy.bits .f32
  concatenates_S128x1000_S128x1000_S256x1000_d0 : Shape.Concatenates [S128x1000, S128x1000] S256x1000 0
  shapeCasts_S1000_S1x1000 : S1000.ShapeCasts S1x1000
  inb_S1024x128_S1024x128_0_0 : ∀ a, (![0, 0] : Fin 2 → Nat) a + S1024x128.size a ≤ S1024x128.size a
  h_S1024x128 : 0 < S1024x128.numel
  concatenates_S1024x128_S1024x128_S1024x256_d1 : Shape.Concatenates [S1024x128, S1024x128] S1024x256 1
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x256_S256x1000_S1024x1000_1_0_0_1_n_n_wf : DotDims.WF S1024x256 S256x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S256x1000.size a
  hwx0_1 : ∀ i : grid0.Coords, EltTy.bits .bf16 = 32 ∨ (Rect.block (s := S256x1000) S256x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S32768x1000.size a
  hwx0_3 : ∀ i : grid0.Coords, EltTy.bits .f32 = 32 ∨ (Rect.block (s := S32768x1000) S1024x1000.size (cc0_transform_3 i) (hinb0_3 i)).WholeWords (EltTy.packing .f32)

variable [Facts₀]

def dot_S1024x256_S256x1000_S1024x1000_1_0_0_1_n_n : DotDims S1024x256 S256x1000 S1024x1000 where
  lhsContracting := [1]
  rhsContracting := [0]
  lhsNonContracting := [0]
  rhsNonContracting := [1]
  lhsBatch := []
  rhsBatch := []
  wf := dot_S1024x256_S256x1000_S1024x1000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x128 : Shape := ⟨2, ![32768, 128]⟩
abbrev S1000x128 : Shape := ⟨2, ![1000, 128]⟩
abbrev S_ : Shape := ⟨0, ![]⟩
abbrev S32768x1000 : Shape := ⟨2, ![32768, 1000]⟩
abbrev S1000 : Shape := ⟨1, ![1000]⟩
abbrev S1x1000 : Shape := ⟨2, ![1, 1000]⟩

abbrev nBuf : Space → Nat
  | .hbm => 34
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1000x128, .f32⟩
  | .hbm, ⟨2, _⟩ => ⟨S1000x128, .f32⟩
  | .hbm, ⟨3, _⟩ => ⟨S1000x128, .f32⟩
  | .hbm, ⟨4, _⟩ => ⟨S_, .f32⟩
  | .hbm, ⟨5, _⟩ => ⟨S1000x128, .f32⟩
  | .hbm, ⟨6, _⟩ => ⟨S1000x128, .f32⟩
  | .hbm, ⟨7, _⟩ => ⟨S32768x128, .f32⟩
  | .hbm, ⟨8, _⟩ => ⟨S32768x1000, .f32⟩
  | .hbm, ⟨9, _⟩ => ⟨S1000x128, .f32⟩
  | .hbm, ⟨10, _⟩ => ⟨S32768x1000, .f32⟩
  | .hbm, ⟨11, _⟩ => ⟨S1000x128, .f32⟩
  | .hbm, ⟨12, _⟩ => ⟨S1000x128, .f32⟩
  | .hbm, ⟨13, _⟩ => ⟨S_, .f32⟩
  | .hbm, ⟨14, _⟩ => ⟨S1000, .f32⟩
  | .hbm, ⟨15, _⟩ => ⟨S_, .f32⟩
  | .hbm, ⟨16, _⟩ => ⟨S32768x1000, .f32⟩
  | .hbm, ⟨17, _⟩ => ⟨S32768x1000, .f32⟩
  | .hbm, ⟨18, _⟩ => ⟨S32768x1000, .f32⟩
  | .hbm, ⟨19, _⟩ => ⟨S1x1000, .f32⟩
  | .hbm, ⟨20, _⟩ => ⟨S32768x1000, .f32⟩
  | .hbm, ⟨21, _⟩ => ⟨S32768x1000, .f32⟩
  | .hbm, ⟨22, _⟩ => ⟨S_, .f32⟩
  | .hbm, ⟨23, _⟩ => ⟨S32768x1000, .f32⟩
  | .hbm, ⟨24, _⟩ => ⟨S32768x1000, .f32⟩
  | .hbm, ⟨25, _⟩ => ⟨S1000x128, .f32⟩
  | .hbm, ⟨26, _⟩ => ⟨S_, .f32⟩
  | .hbm, ⟨27, _⟩ => ⟨S1000x128, .f32⟩
  | .hbm, ⟨28, _⟩ => ⟨S1000x128, .f32⟩
  | .hbm, ⟨29, _⟩ => ⟨S_, .f32⟩
  | .hbm, ⟨30, _⟩ => ⟨S1000, .f32⟩
  | .hbm, ⟨31, _⟩ => ⟨S1x1000, .f32⟩
  | .hbm, ⟨32, _⟩ => ⟨S32768x1000, .f32⟩
  | .hbm, ⟨33, _⟩ => ⟨S32768x1000, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  reducesTo_S1000x128_S1000_d1 : S1000x128.ReducesTo [1] S1000
  h_S_ : 0 < S_.numel
  bcast_S_S32768x1000 : S_.BroadcastsInDim S32768x1000 (![] : Fin 0 → Fin S32768x1000.rank)
  bcast_S1000_S1x1000_1 : S1000.BroadcastsInDim S1x1000 (![1] : Fin 1 → Fin S1x1000.rank)
  bcast_S1x1000_S32768x1000_0_1 : S1x1000.BroadcastsInDim S32768x1000 (![0, 1] : Fin 2 → Fin S32768x1000.rank)
  dot_S32768x128_S1000x128_S32768x1000_1_1_0_0_n_n_wf : DotDims.WF S32768x128 S1000x128 S32768x1000 [1] [1] [0] [0] [] []

variable [Facts₀]

def dot_S32768x128_S1000x128_S32768x1000_1_1_0_0_n_n : DotDims S32768x128 S1000x128 S32768x1000 where
  lhsContracting := [1]
  rhsContracting := [1]
  lhsNonContracting := [0]
  rhsNonContracting := [0]
  lhsBatch := []
  rhsBatch := []
  wf := dot_S32768x128_S1000x128_S32768x1000_1_1_0_0_n_n_wf

class Facts : Prop extends Facts₀ where

variable [Facts]
-- ==== Proof.LogDensity.lean ====
/-
  The diagonal-Gaussian log-density of one embedding row against one class, written both ways, and the law
  between the two.

  For a row x of the embeddings and a class with mean row μ and scale row s (all of length 128) put
  v_d = 1 / (s_d · s_d). The class constants are
      mm = Σ_d (μ_d · μ_d) · v_d        and        ln = Σ_d (½·log 2π + log s_d).
  Expanded form (the reference):   −½ · ((Σ_d (x_d·x_d)·v_d  −  2 · Σ_d x_d·(μ_d·v_d))  +  mm)  −  ln.
  Contracted form (the kernel): one contraction of length 256 of the row [x_0², …, x_127², x_0, …, x_127]
  against the column [−½·v_0, …, −½·v_127, μ_0·v_0, …, μ_127·v_127], plus the class bias (−½·mm − ln).

  On the extended reals the two forms differ where a v_d is infinite (−½ does not distribute over ∞ − ∞), so the
  law is stated for real x, μ and real POSITIVE s: then every v_d is real, −½ distributes, 2·½ cancels, and
  the sum of the contracted products splits into its first and last 128 terms. The term ln is the same
  expression on both sides and is moved only by associativity of +, which holds on all extended reals, so
  nothing is asked of it.
-/
import Idealize.ShloMosaic.PureOps.Ideal
import Idealize.ShloMosaic.PureOps.Ideal.Laws
import Idealize.ShloMosaic.Lib.ValueIdx

noncomputable section

open scoped BigOperators
open Idealize.ShloMosaic

namespace Cert.LogDensity

/-! ## The exact literals -/

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_negHalf : Ideal.ofBits .f32 0xBF000000#32 = ((-(1 / 2) : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-! ## The two forms -/

/-- The inverse variance 1 / (s · s). -/
def invVar (s : EReal) : EReal := Ideal.div (Ideal.ofBits .f32 0x3F800000#32) (s * s)

/-- mm: the class mean's squared norm in the class metric, summed from zero. -/
def meanTerm (M S : Fin 128 → EReal) : EReal :=
  Ideal.ofBits .f32 0x00000000#32 + ∑ k : Fin 128, (M k * M k) * invVar (S k)

/-- ln: the class normaliser Σ_d (½·log 2π + log s_d), summed from zero. -/
def logNorm (S : Fin 128 → EReal) : EReal :=
  Ideal.ofBits .f32 0x00000000#32 + ∑ k : Fin 128, (Ideal.ofBits .f32 0x3F6B3F8E#32 + Ideal.log (S k))

/-- The expanded form. -/
def expanded (X M S : Fin 128 → EReal) : EReal :=
  Ideal.ofBits .f32 0xBF000000#32 *
      (((∑ k : Fin 128, (X k * X k) * invVar (S k))
          - Ideal.ofBits .f32 0x40000000#32 * (∑ k : Fin 128, X k * (M k * invVar (S k))))
        + meanTerm M S)
    - logNorm S

/-- The row [x², x] of length 256. -/
def sqThenId (X : Fin 128 → EReal) (j : Fin 256) : EReal :=
  if h : j.val < 128 then X ⟨j.val, h⟩ * X ⟨j.val, h⟩ else X ⟨j.val - 128, by omega⟩

/-- The class's column [−½·v, μ·v] of length 256. -/
def weightCol (M S : Fin 128 → EReal) (j : Fin 256) : EReal :=
  if h : j.val < 128 then Ideal.ofBits .f32 0xBF000000#32 * invVar (S ⟨j.val, h⟩)
  else M ⟨j.val - 128, by omega⟩ * invVar (S ⟨j.val - 128, by omega⟩)

/-- The class bias −½·mm − ln. -/
def bias (M S : Fin 128 → EReal) : EReal :=
  Ideal.ofBits .f32 0xBF000000#32 * meanTerm M S - logNorm S

/-- The contracted form. -/
def contracted (X M S : Fin 128 → EReal) : EReal :=
  (∑ j : Fin 256, sqThenId X j * weightCol M S j) + bias M S

/-! ## The law -/

/-- A finite sum of reals, summed on the extended reals, is the real sum. -/
theorem coe_sum {n : ℕ} (f : Fin n → ℝ) : ∑ k : Fin n, ((f k : ℝ) : EReal) = ((∑ k : Fin n, f k : ℝ) : EReal) := by
  have h : ∀ t : Finset (Fin n), ∑ k ∈ t, ((f k : ℝ) : EReal) = ((∑ k ∈ t, f k : ℝ) : EReal) := by
    intro t
    refine Finset.induction_on t (by simp) ?_
    intro a t ha ih
    rw [Finset.sum_insert ha, Finset.sum_insert ha, ih, EReal.coe_add]
  exact h Finset.univ

/-- The contraction of length 256 is the sum of its first 128 products and its last 128. -/
theorem contraction_split (X M S : Fin 128 → EReal) :
    ∑ j : Fin 256, sqThenId X j * weightCol M S j
      = (∑ i : Fin 128, (X i * X i) * (Ideal.ofBits .f32 0xBF000000#32 * invVar (S i)))
        + ∑ i : Fin 128, X i * (M i * invVar (S i)) := by
  have hs := Fin.sum_univ_add (a := 128) (b := 128) (fun j : Fin (128 + 128) => sqThenId X j * weightCol M S j)
  -- the first 128 positions hold the squares against −½·v
  have h1 : ∑ i : Fin 128, sqThenId X (Fin.castAdd 128 i : Fin (128 + 128)) * weightCol M S (Fin.castAdd 128 i : Fin (128 + 128))
      = ∑ i : Fin 128, (X i * X i) * (Ideal.ofBits .f32 0xBF000000#32 * invVar (S i)) := by
    refine Finset.sum_congr rfl fun i _ => ?_
    have hi : (Fin.castAdd 128 i : Fin (128 + 128)).val < 128 := i.isLt
    unfold sqThenId weightCol
    rw [dif_pos hi, dif_pos hi]
    rfl
  -- the last 128 positions hold the row itself against μ·v
  have h2 : ∑ i : Fin 128, sqThenId X (Fin.natAdd 128 i : Fin (128 + 128)) * weightCol M S (Fin.natAdd 128 i : Fin (128 + 128))
      = ∑ i : Fin 128, X i * (M i * invVar (S i)) := by
    refine Finset.sum_congr rfl fun i _ => ?_
    have hi : ¬ (Fin.natAdd 128 i : Fin (128 + 128)).val < 128 := by
      show ¬ (128 + i.val < 128); omega
    have he : ∀ h : (Fin.natAdd 128 i : Fin (128 + 128)).val - 128 < 128,
        (⟨(Fin.natAdd 128 i : Fin (128 + 128)).val - 128, h⟩ : Fin 128) = i := fun _ =>
      Fin.ext (by show 128 + i.val - 128 = i.val; omega)
    unfold sqThenId weightCol
    rw [dif_neg hi, dif_neg hi]
    simp only [he]
  exact hs.trans (congrArg₂ (· + ·) h1 h2)

/-- For real rows and positive real scales the contracted form is the expanded form. -/
theorem contracted_eq_expanded (X M S : Fin 128 → EReal)
    (hX : ∀ k, ∃ r : ℝ, X k = (r : EReal)) (hM : ∀ k, ∃ r : ℝ, M k = (r : EReal))
    (hS : ∀ k, ∃ r : ℝ, 0 < r ∧ S k = (r : EReal)) :
    contracted X M S = expanded X M S := by
  choose x hx using hX
  choose m hm using hM
  choose s hs using hS
  obtain rfl : X = fun k => (x k : EReal) := funext hx
  obtain rfl : M = fun k => (m k : EReal) := funext hm
  obtain rfl : S = fun k => (s k : EReal) := funext fun k => (hs k).2
  -- every inverse variance is real
  have hv : ∀ k, invVar (s k : EReal) = ((1 / (s k * s k) : ℝ) : EReal) := fun k => by
    unfold invVar
    rw [← EReal.coe_mul, Ideal.div_coe (mul_self_ne_zero.mpr (hs k).1.ne'), ofBits_one, ← EReal.coe_mul, one_mul]
  unfold contracted expanded bias
  rw [contraction_split]
  unfold meanTerm
  generalize logNorm (fun k => (s k : EReal)) = L
  simp only [hv, ofBits_negHalf, ofBits_two, Ideal.ofBits_zero_f32, zero_add, ← EReal.coe_mul, coe_sum,
    ← EReal.coe_add, ← EReal.coe_sub]
  rw [sub_eq_add_neg, sub_eq_add_neg, ← add_assoc, ← EReal.coe_add]
  congr 2
  have h1 : ∑ i : Fin 128, x i * x i * (-(1 / 2) * (1 / (s i * s i)))
      = -(1 / 2) * ∑ i : Fin 128, x i * x i * (1 / (s i * s i)) := by
    rw [Finset.mul_sum]; exact Finset.sum_congr rfl fun i _ => by ring
  rw [h1]; ring

end Cert.LogDensity

end
-- ==== Proof.TileValue.lean ====
/-
  One tile of the kernel's output, entry by entry.

  At a grid point the body holds a tile of 1024 embedding rows, the whole weight table (256 × 1000) and the bias
  row (1 × 1000). It squares the tile, lays the squares and the tile side by side (1024 × 256), contracts that
  with the table over the shared axis of length 256 into a zero accumulator, and adds the bias row to every
  row. Entry (p, q) of the stored tile is therefore
      Σ_{j < 256} [x_p², x_p]_j · table(j, q)   +   bias(0, q),
  where [x_p², x_p] is row p of the tile squared followed by row p itself. Changes of float format are the
  identity on the extended reals.
-/
import proofs.«147443_j51642686767616_2_alg».proof.Proof.Gen.KernelIdeal.Skeleton
import proofs.«147443_j51642686767616_2_alg».proof.Proof.LogDensity
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Cert.KernelIdeal.Facts
open Idealize.ShloMosaic Idealize.ShloMosaic.ValueIdx Cert.LogDensity

/-- Two 1024 × 128 pieces laid side by side, read at (p, j): the first piece for j < 128, the second at j − 128
    otherwise. -/
theorem sideBySide_apply (a b : S1024x128.Idx → EReal) (p : Fin 1024) (j : Fin 256) :
    concatenate S1024x256 1 [⟨S1024x128, a⟩, ⟨S1024x128, b⟩] concatenates_S1024x128_S1024x128_S1024x256_d1 (ix2 p j)
      = if h : j.val < 128 then a (ix2 p ⟨j.val, h⟩) else b (ix2 p ⟨j.val - 128, by omega⟩) := by
  by_cases h : j.val < 128
  · rw [dif_pos h]
    exact concatenate_pair_apply_left 1 a b concatenates_S1024x128_S1024x128_S1024x256_d1 (ix2 p j) rfl
      (ix2 p ⟨j.val, h⟩) (fun b => by match b with | ⟨0, _⟩ => rfl | ⟨1, _⟩ => rfl)
  · rw [dif_neg h]
    exact concatenate_pair_apply_right 1 a b concatenates_S1024x128_S1024x128_S1024x256_d1 (ix2 p j) rfl rfl
      (ix2 p ⟨j.val - 128, by omega⟩)
      (fun b hb => by match b, hb with | ⟨0, _⟩, _ => rfl | ⟨1, _⟩, hb => exact absurd rfl hb)
      (by show (j.val - 128) + 128 = j.val; omega)

local notation "D" => dot_S1024x256_S256x1000_S1024x1000_1_0_0_1_n_n

theorem lhs_row (i : S1024x1000.Idx) (k : (D).contr.Idx) : ((D).lhsIdx i k 0).val = (i 0).val := by
  unfold DotDims.lhsIdx
  rw [dif_neg (show ¬(0 : Fin S1024x256.rank) ∈ (D).lhsBatch by decide),
    dif_pos (show (0 : Fin S1024x256.rank) ∈ (D).lhsNonContracting by decide)]
  rfl
theorem lhs_sum (i : S1024x1000.Idx) (k : (D).contr.Idx) : ((D).lhsIdx i k 1).val = (k ⟨0, by decide⟩).val :=
  (D).lhsIdx_val_of_single rfl i k
theorem rhs_sum (i : S1024x1000.Idx) (k : (D).contr.Idx) : ((D).rhsIdx i k 0).val = (k ⟨0, by decide⟩).val :=
  (D).rhsIdx_val_of_single rfl i k
theorem rhs_col (i : S1024x1000.Idx) (k : (D).contr.Idx) : ((D).rhsIdx i k 1).val = (i 1).val := by
  unfold DotDims.rhsIdx
  rw [dif_neg (show ¬(1 : Fin S256x1000.rank) ∈ (D).rhsBatch by decide),
    dif_pos (show (1 : Fin S256x1000.rank) ∈ (D).rhsNonContracting by decide)]
  rfl

/-- The contraction into a zero accumulator, read at (p, q): the sum over the shared axis of row p of the left
    operand against column q of the right. -/
theorem contraction_apply (lhs : FVec Ideal S1024x256 .bf16) (rhs : FVec Ideal S256x1000 .bf16) (p : Fin 1024) (q : Fin 1000) :
    matmul (F := Ideal) (D) none lhs rhs (constant S1024x1000 .f32 0x00000000#32) (ix2 p q)
      = ∑ j : Fin 256, lhs (ix2 p j) * rhs (ix2 j q) := by
  simp only [matmul]
  rw [Ideal.matmul_constant_zero_apply, ← Equiv.sum_comp (ValueIdx.contrEquiv1 (D) 256 rfl rfl).symm]
  refine Finset.sum_congr rfl fun k _ => ?_
  have hk := ValueIdx.contrEquiv1_symm_val (D) 256 rfl rfl k
  have el : (D).lhsIdx (ix2 p q) ((ValueIdx.contrEquiv1 (D) 256 rfl rfl).symm k) = ix2 p k :=
    funext fun a => Fin.ext (by
      match a with
      | ⟨0, _⟩ => exact lhs_row _ _
      | ⟨1, _⟩ => exact (lhs_sum _ _).trans hk)
  have er : (D).rhsIdx (ix2 p q) ((ValueIdx.contrEquiv1 (D) 256 rfl rfl).symm k) = ix2 k q :=
    funext fun a => Fin.ext (by
      match a with
      | ⟨0, _⟩ => exact (rhs_sum _ _).trans hk
      | ⟨1, _⟩ => exact rhs_col _ _)
  rw [el, er]

/-- The bias row spread over the tile's rows, read at (p, q): the row's entry q. -/
theorem spreadRow_apply (v : S1x1000.Idx → EReal) (p : Fin 1024) (q : Fin 1000) :
    broadcastTo S1024x1000 v broadcasts_S1x1000_S1024x1000 (ix2 p q) = v (ix2 (0 : Fin 1) q) :=
  broadcastTo_apply v broadcasts_S1x1000_S1024x1000 (ix2 p q) (ix2 (0 : Fin 1) q) (fun a => by
    match a with
    | ⟨0, _⟩ => show 0 = if (1 : Nat) = 1 then 0 else _; rw [if_pos rfl]
    | ⟨1, _⟩ => show q.val = if (1000 : Nat) = 1 then 0 else q.val; rw [if_neg (by decide)])

/-- Entry (p, q) of the stored tile. -/
theorem stored_apply (v0 : Vec Ideal S1024x128 .f32) (v4 : Vec Ideal S256x1000 .bf16) (v7 : Vec Ideal S1x1000 .f32)
    (p : Fin 1024) (q : Fin 1000) :
    k0_pay1 (F := Ideal) v0 v4 v7 (ix2 p q)
      = (∑ j : Fin 256, sqThenId (fun k => v0 (ix2 p k)) j * v4 (ix2 j q)) + v7 (ix2 (0 : Fin 1) q) := by
  unfold k0_pay1
  refine (addf_apply _ _ _).trans ?_
  refine congrArg₂ (· + ·) ?_ ?_
  · refine (contraction_apply _ _ p q).trans ?_
    refine Finset.sum_congr rfl fun j _ => ?_
    refine congrArg₂ (· * ·) ?_ ?_
    · refine (sideBySide_apply _ _ p j).trans ?_
      unfold sqThenId
      rfl
    · rw [shapeCast_self]
  · refine (spreadRow_apply _ p q).trans ?_
    rw [shapeCast_self]

end Cert.KernelIdeal.Tile

end
-- ==== Proof.ClassTables.lean ====
/-
  The two per-class tables the kernel contracts against, entry by entry.

  Before the tiles are processed the class means μ and scales s (both 1000 × 128) are turned into
    · a weight table of 256 rows and 1000 columns: rows 0..127 hold −½·v transposed, rows 128..255 hold μ·v
      transposed, with v = 1/(s·s) entry by entry; so column q of the table is [−½·v_q, μ_q·v_q], built from row q
      of the means and scales;
    · a bias row of 1000 entries: entry q is −½·(Σ_d μ_qd²·v_qd) − Σ_d (½·log 2π + log s_qd), the per-class sums
      taken from zero along the rows.
  Transposition swaps the two coordinates; the reshape of the 1000 sums to a 1 × 1000 row keeps the position;
  changes of float format are the identity on the extended reals.
-/
import proofs.«147443_j51642686767616_2_alg».proof.Proof.Gen.KernelIdeal.Frame
import proofs.«147443_j51642686767616_2_alg».proof.Proof.LogDensity
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Tables

open Cert.KernelIdeal Cert.KernelIdeal.Gen Cert.KernelIdeal.Facts
open Idealize.ShloMosaic Idealize.ShloMosaic.TcCoe Idealize.SL.Sem Idealize.ShloMosaic.StableHlo
open Idealize.ShloMosaic.ValueIdx Cert.LogDensity

/-! ## The tables as functions of the class arrays -/

/-- v = 1/(s·s), entry by entry. -/
def invVarArr (x2 : FVec Ideal S1000x128 .f32) : FVec Ideal S1000x128 .f32 :=
  Host.divf (broadcastInDim S1000x128 ![] bcast_S_S1000x128 (constant S_ .f32 0x3F800000#32)) (mulf x2 x2)

/-- The weight table: −½·v transposed above μ·v transposed. -/
def table (x1 x2 : FVec Ideal S1000x128 .f32) : FVec Ideal S256x1000 .bf16 :=
  concatenate S256x1000 0
    [⟨S128x1000, truncf .bf16 (transpose S128x1000 [1, 0]
        (mulf (broadcastInDim S1000x128 ![] bcast_S_S1000x128 (constant S_ .f32 0xBF000000#32)) (invVarArr x2))
        transposes_S1000x128_S128x1000_1_0) bitsLt_bf16_f32⟩,
     ⟨S128x1000, truncf .bf16 (transpose S128x1000 [1, 0] (mulf x1 (invVarArr x2))
        transposes_S1000x128_S128x1000_1_0) bitsLt_bf16_f32⟩]
    concatenates_S128x1000_S128x1000_S256x1000_d0

/-- Σ_d μ²·v per class, from zero. -/
def meanSum (x1 x2 : FVec Ideal S1000x128 .f32) : FVec Ideal S1000 .f32 :=
  Host.reduceAdd (mulf (mulf x1 x1) (invVarArr x2)) (constant S_ .f32 0x00000000#32) reducesTo_S1000x128_S1000_d1 h_S_

/-- Σ_d (½·log 2π + log s) per class, from zero. -/
def normSum (x2 : FVec Ideal S1000x128 .f32) : FVec Ideal S1000 .f32 :=
  Host.reduceAdd (addf (broadcastInDim S1000x128 ![] bcast_S_S1000x128 (constant S_ .f32 0x3F6B3F8E#32)) (Host.log x2))
    (constant S_ .f32 0x00000000#32) reducesTo_S1000x128_S1000_d1 h_S_

/-- The bias row. -/
def biasRow (x1 x2 : FVec Ideal S1000x128 .f32) : FVec Ideal S1x1000 .f32 :=
  shapeCast S1x1000
    (subf (mulf (broadcastInDim S1000 ![] bcast_S_S1000 (constant S_ .f32 0xBF000000#32)) (meanSum x1 x2)) (normSum x2))
    shapeCasts_S1000_S1x1000

/-! ## What the tiles find in the two staged arrays -/

variable (m : (ℓ : Loc nD τ sig) → Buf (Elt Ideal) ℓ)

/-- The array the weight window stages is the weight table of the launched means and scales. -/
theorem V_table (c : Dev nD) :
    (V m c main_v20 : S256x1000.Idx → EReal)
      = table (m ((c : Thread nD τ).loc main_arg1)) (m ((c : Thread nD τ).loc main_arg2)) := by
  dsimp only [Gen.V, Gen.hostOps0]
  after_results
  rfl

/-- The array the bias window stages is the bias row of the launched means and scales. -/
theorem V_bias (c : Dev nD) :
    (V m c main_v21 : S1x1000.Idx → EReal)
      = biasRow (m ((c : Thread nD τ).loc main_arg1)) (m ((c : Thread nD τ).loc main_arg2)) := by
  dsimp only [Gen.V, Gen.hostOps0]
  after_results
  rfl

/-! ## The tables read at an index -/

/-- A scalar literal spread over a 1000 × 128 array reads the literal everywhere. -/
theorem splat2 (w : BitVec 32) (i : S1000x128.Idx) :
    broadcastInDim S1000x128 ![] bcast_S_S1000x128 (constant (F := Ideal) S_ .f32 w) i = Ideal.ofBits .f32 w :=
  broadcastInDim_apply _ bcast_S_S1000x128 _ i (fun a => a.elim0) (fun a => a.elim0)

/-- A scalar literal spread over 1000 entries reads the literal everywhere. -/
theorem splat1 (w : BitVec 32) (i : S1000.Idx) :
    broadcastInDim S1000 ![] bcast_S_S1000 (constant (F := Ideal) S_ .f32 w) i = Ideal.ofBits .f32 w :=
  broadcastInDim_apply _ bcast_S_S1000 _ i (fun a => a.elim0) (fun a => a.elim0)

theorem invVarArr_apply (x2 : FVec Ideal S1000x128 .f32) (i : S1000x128.Idx) : invVarArr x2 i = invVar (x2 i) := by
  show Ideal.div (broadcastInDim S1000x128 ![] bcast_S_S1000x128 (constant (F := Ideal) S_ .f32 0x3F800000#32) i) (x2 i * x2 i) = _
  rw [splat2]; rfl

/-- The transpose read at (j, q) is the operand at (q, j). -/
theorem transposed_apply (y : S1000x128.Idx → EReal) (j : Fin 128) (q : Fin 1000) :
    transpose S128x1000 [1, 0] y transposes_S1000x128_S128x1000_1_0 (ix2 j q) = y (ix2 q j) :=
  transpose_apply [1, 0] y transposes_S1000x128_S128x1000_1_0 (ix2 j q) (ix2 q j) (fun b => by
    match b with | ⟨0, _⟩ => rfl | ⟨1, _⟩ => rfl)

/-- Column q of the weight table is the class's column [−½·v, μ·v] built from row q of the means and scales. -/
theorem table_apply (x1 x2 : FVec Ideal S1000x128 .f32) (j : Fin 256) (q : Fin 1000) :
    table x1 x2 (ix2 j q) = weightCol (fun k => x1 (ix2 q k)) (fun k => x2 (ix2 q k)) j := by
  unfold table weightCol
  by_cases h : j.val < 128
  · rw [dif_pos h]
    refine (concatenate_pair_apply_left 0 _ _ concatenates_S128x1000_S128x1000_S256x1000_d0 (ix2 j q) rfl
      (ix2 (⟨j.val, h⟩ : Fin 128) q) (fun b => by match b with | ⟨0, _⟩ => rfl | ⟨1, _⟩ => rfl)).trans ?_
    refine (truncf_apply (ψ := .bf16) (φ := .f32) _ bitsLt_bf16_f32 _).trans ?_
    refine (transposed_apply _ _ _).trans ?_
    refine (mulf_apply _ _ _).trans ?_
    rw [splat2, invVarArr_apply]
  · rw [dif_neg h]
    refine (concatenate_pair_apply_right 0 _ _ concatenates_S128x1000_S128x1000_S256x1000_d0 (ix2 j q) rfl rfl
      (ix2 (⟨j.val - 128, by omega⟩ : Fin 128) q)
      (fun b hb => by match b, hb with | ⟨0, _⟩, hb => exact absurd rfl hb | ⟨1, _⟩, _ => rfl)
      (by show (j.val - 128) + 128 = j.val; omega)).trans ?_
    refine (truncf_apply (ψ := .bf16) (φ := .f32) _ bitsLt_bf16_f32 _).trans ?_
    refine (transposed_apply _ _ _).trans ?_
    refine (mulf_apply _ _ _).trans ?_
    rw [invVarArr_apply]

/-- A sum along the rows of a 1000 × 128 array from zero, read at class q. -/
theorem rowSum_apply (y : FVec Ideal S1000x128 .f32) (q : Fin 1000) :
    Host.reduceAdd y (constant S_ .f32 0x00000000#32) reducesTo_S1000x128_S1000_d1 h_S_ (ix1 q)
      = Ideal.ofBits .f32 0x00000000#32 + ∑ k : Fin 128, y (ix2 q k) := by
  simp only [Host.reduceAdd, Ideal.hostReduceAdd_def]
  rw [Ideal.hostReduceAdd_single reducesTo_S1000x128_S1000_d1 (by decide)]
  refine congrArg₂ (· + ·) rfl (Finset.sum_congr rfl fun k _ => ?_)
  exact congrArg y (funext fun a => Fin.ext (by match a with | ⟨0, _⟩ => rfl | ⟨1, _⟩ => rfl))

/-- Entry q of the bias row is the class bias built from row q of the means and scales. -/
theorem biasRow_apply (x1 x2 : FVec Ideal S1000x128 .f32) (q : Fin 1000) :
    biasRow x1 x2 (ix2 (0 : Fin 1) q) = bias (fun k => x1 (ix2 q k)) (fun k => x2 (ix2 q k)) := by
  unfold biasRow
  refine (shapeCast_apply _ shapeCasts_S1000_S1x1000 (ix2 (0 : Fin 1) q) (ix1 q) (by
    rw [Shape.rowMajor_val_one, Shape.rowMajor_val_two]
    show q.val = 0 * 1000 + q.val
    omega)).trans ?_
  refine (subf_apply _ _ _).trans ?_
  unfold bias
  refine congrArg₂ (· - ·) ?_ ?_
  · refine (mulf_apply _ _ _).trans ?_
    rw [splat1]
    unfold meanSum meanTerm
    rw [rowSum_apply]
    refine congrArg₂ (· * ·) rfl (congrArg₂ (· + ·) rfl (Finset.sum_congr rfl fun k _ => ?_))
    refine (mulf_apply _ _ _).trans ?_
    rw [invVarArr_apply]
    rfl
  · unfold normSum logNorm
    rw [rowSum_apply]
    refine congrArg₂ (· + ·) rfl (Finset.sum_congr rfl fun k _ => ?_)
    refine (addf_apply _ _ _).trans ?_
    rw [splat2]
    rfl

end Cert.KernelIdeal.Tables

end
-- ==== Proof.OutputArray.lean ====
/-
  From tiles to the whole output array.

  The grid has 32 points; point t processes embedding rows 1024·t … 1024·t + 1023 and writes rows of the same
  numbers of the output, all 1000 columns. The weight table and the bias row are the same whole arrays at every
  point. Entry (p, q) of the tile written at point t is therefore the contracted log-density of embedding row
  1024·t + p against class q, that is, entry (1024·t + p, q) of ONE function of the three argument arrays; the
  32 tiles cover all 32768 rows (row r lies in tile r / 1024), so the output array ends holding that function.
-/
import proofs.«147443_j51642686767616_2_alg».proof.Proof.Gen.KernelIdeal.Value
import proofs.«147443_j51642686767616_2_alg».proof.Proof.TileValue
import proofs.«147443_j51642686767616_2_alg».proof.Proof.ClassTables

noncomputable section

open scoped BigOperators

namespace Cert.KernelIdeal.Whole

open Cert.KernelIdeal Cert.KernelIdeal.Gen Cert.KernelIdeal.Facts
open Idealize.ShloMosaic Idealize.ShloMosaic.TcCoe Idealize.SL.Sem
open Idealize.ShloMosaic.Pipeline (Dat)
open Idealize.ShloMosaic.ValueIdx Cert.LogDensity Cert.KernelIdeal.Tile Cert.KernelIdeal.Tables

/-- The output as one function of the argument arrays: entry (r, q) is the contracted log-density of embedding
    row r against class q. -/
def result (x0 : S32768x128.Idx → EReal) (x1 x2 : S1000x128.Idx → EReal) : S32768x1000.Idx → EReal :=
  fun i => contracted (fun k => x0 (ix2 (i 0 : Fin 32768) k)) (fun k => x1 (ix2 (i 1 : Fin 1000) k))
    (fun k => x2 (ix2 (i 1 : Fin 1000) k))

/-- One entry of one tile: if the tile's row p is embedding row r, the staged table is the weight table and the
    staged row the bias row, then the stored entry (p, q) is the contracted log-density of row r against class q. -/
theorem tile_entry (x0 : S32768x128.Idx → EReal) (x1 x2 : FVec Ideal S1000x128 .f32)
    (v0 : Vec Ideal S1024x128 .f32) (v4 : Vec Ideal S256x1000 .bf16) (v7 : Vec Ideal S1x1000 .f32)
    (p : Fin 1024) (q : Fin 1000) (r : Fin 32768)
    (h0 : ∀ k : Fin 128, v0 (ix2 p k) = x0 (ix2 r k))
    (h4 : ∀ j : Fin 256, v4 (ix2 j q) = table x1 x2 (ix2 j q))
    (h7 : v7 (ix2 (0 : Fin 1) q) = biasRow x1 x2 (ix2 (0 : Fin 1) q)) :
    k0_pay1 (F := Ideal) v0 v4 v7 (ix2 p q)
      = contracted (fun k => x0 (ix2 r k)) (fun k => x1 (ix2 q k)) (fun k => x2 (ix2 q k)) := by
  rw [stored_apply, h7, biasRow_apply]
  unfold contracted
  refine congrArg₂ (· + ·) (Finset.sum_congr rfl fun j _ => ?_) rfl
  rw [h4 j, table_apply, show (fun k => v0 (ix2 p k)) = fun k => x0 (ix2 r k) from funext h0]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the embedding window moves with the output window along the
    rows, every other block coordinate is 0, and the row-block number stays below 32. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem idx_onto : ∀ b : Fin 32, ∃ t : Fin cfg0.N, win0_3.index t (0 : Fin 2) = b.val :=
  (by decide +kernel : ∀ b : Fin 32, ∃ t : Fin grid0.N, win0_3.index t (0 : Fin 2) = b.val)

/-- What point t writes back is tile t of the result function of the launched arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1024x128) hz, View.ld_unit_zero (S := S256x1000) hz, View.ld_unit_zero (S := S1x1000) hz]
  obtain ⟨e00, e01, e10, e11, e20, e21, e31, e30⟩ := idx_facts t
  funext y
  obtain ⟨p, q, rfl⟩ : ∃ (p : Fin 1024) (q : Fin 1000), y = ix2 p q := ⟨y 0, y 1, eq_ix2 y⟩
  -- the embedding row this tile row is
  have hr : win0_3.index t (0 : Fin 2) * 1024 + p.val < 32768 := by have := p.isLt; omega
  have hemb : ((cfg0.win 3).blk t).view.emb (ix2 p q)
      = ix2 (⟨win0_3.index t (0 : Fin 2) * 1024 + p.val, hr⟩ : Fin 32768) q := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1000 + 1 * q.val = q.val; omega
  show k0_pay1 (F := Ideal) (iblk m c 0 t) (iblk m c 1 t) (iblk m c 2 t) (ix2 p q)
    = result (m ((c : Thread nD τ).loc main_arg0)) (m ((c : Thread nD τ).loc main_arg1)) (m ((c : Thread nD τ).loc main_arg2))
        (((cfg0.win 3).blk t).view.emb (ix2 p q))
  rw [hemb]
  refine tile_entry _ _ _ _ _ _ p q ⟨win0_3.index t (0 : Fin 2) * 1024 + p.val, hr⟩ ?_ ?_ ?_
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 128 + 1 * k.val = k.val; omega
  · intro j
    show V m c main_v20 (((cfg0.win 1).blk t).view.emb (ix2 j q)) = _
    rw [V_table]
    refine congrArg _ (funext fun a => Fin.ext ?_)
    match a with
    | ⟨0, _⟩ => show win0_1.index t (0 : Fin 2) * 256 + 1 * j.val = j.val; omega
    | ⟨1, _⟩ => show win0_1.index t (1 : Fin 2) * 1000 + 1 * q.val = q.val; omega
  · show V m c main_v21 (((cfg0.win 2).blk t).view.emb (ix2 (0 : Fin 1) q)) = _
    rw [V_bias]
    refine congrArg _ (funext fun a => Fin.ext ?_)
    match a with
    | ⟨0, _⟩ => show win0_2.index t (0 : Fin 2) * 1 + 1 * 0 = 0; omega
    | ⟨1, _⟩ => show win0_2.index t (1 : Fin 2) * 1000 + 1 * q.val = q.val; omega

/-- An index of the output array is in point t's tile iff each coordinate is in the tile's range on its axis. -/
theorem mem_blk (t : Fin cfg0.N) (i : S32768x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v22).slice (win0_3.rect t)).set ↔ _
  rw [View.set_slice_whole, Rect.mem_set_unit]
  exact Iff.rfl

/-- The output array after the run is the result function of the launched arrays: the 32 tiles cover it. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) fun i => by
    have hi0 : (i 0).val < 32768 := (i 0).isLt
    have hi1 : (i 1).val < 1000 := (i 1).isLt
    obtain ⟨t, ht⟩ := idx_onto ⟨(i 0).val / 1024, by omega⟩
    have ht' : win0_3.index t (0 : Fin 2) = (i 0).val / 1024 := ht
    obtain ⟨-, -, -, -, -, -, e31, -⟩ := idx_facts t
    refine ⟨t, flush0_3 t, ?_⟩
    rw [mem_blk]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1000 ≤ (i 1).val ∧ (i 1).val < win0_3.index t (1 : Fin 2) * 1000 + 1000; omega

/-- The kernel's run, read: the output array at the result function of the arguments, the arguments unchanged. -/
theorem run : θ_run defs (onTc (τ := τ) (main (F := Ideal))) ⟨m, fun _ => 0, ρ⟩ fun r => ∀ c : Dev nD,
      r.2.mem ((c : Thread nD τ).loc main_v22)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceValue.lean ====
/-
  The reference's result, entry by entry.

  Entry (p, q) of the reference's result reads only row p of the embeddings and row q of the class means and of
  the class scales: its two host contractions run over the shared axis of length 128, its two row sums over the
  same axis, and the broadcasts of the per-class sums back to the result's shape keep the class coordinate q.
  Reading each operation at an index therefore gives exactly the expanded form of the log-density on those
  three rows.
-/
import proofs.«147443_j51642686767616_2_alg».proof.Proof.Gen.ReferenceIdeal.Read
import proofs.«147443_j51642686767616_2_alg».proof.Proof.LogDensity

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LogDensity

/-- Entry (p, q) of the reference's result is the expanded form on row p of the embeddings and row q of the
    means and scales. -/
theorem result_apply (x0 : (⟨S32768x128, .f32⟩ : BufTy).Contents (Elt Ideal))
    (x1 x2 : (⟨S1000x128, .f32⟩ : BufTy).Contents (Elt Ideal)) (p : Fin 32768) (q : Fin 1000) :
    val_main_v24 (F := Ideal) x0 x1 x2 (ix2 p q)
      = expanded (fun k => x0 (ix2 p k)) (fun k => x1 (ix2 q k)) (fun k => x2 (ix2 q k)) := by
  -- the contractions' operand indices: the embedding row p and the class row q, at the summed coordinate k
  have l4 : ∀ k : Fin 128, lidx_main_v4 (ix2 p q) k = ix2 p k := fun k =>
    funext fun a => Fin.ext (by match a with | ⟨0, _⟩ => rfl | ⟨1, _⟩ => rfl)
  have r4 : ∀ k : Fin 128, ridx_main_v4 (ix2 p q) k = ix2 q k := fun k =>
    funext fun a => Fin.ext (by match a with | ⟨0, _⟩ => rfl | ⟨1, _⟩ => rfl)
  have l6 : ∀ k : Fin 128, lidx_main_v6 (ix2 p q) k = ix2 p k := fun k =>
    funext fun a => Fin.ext (by match a with | ⟨0, _⟩ => rfl | ⟨1, _⟩ => rfl)
  have r6 : ∀ k : Fin 128, ridx_main_v6 (ix2 p q) k = ix2 q k := fun k =>
    funext fun a => Fin.ext (by match a with | ⟨0, _⟩ => rfl | ⟨1, _⟩ => rfl)
  -- the per-class sums, broadcast back over the embedding rows, are read at class q
  have i9 : ∀ k : Fin 128, idx_main_v9 (idx_main_v13 (idx_main_v14 (ix2 p q))) k = ix2 q k := fun k =>
    funext fun a => Fin.ext (by match a with | ⟨0, _⟩ => rfl | ⟨1, _⟩ => rfl)
  have i21 : ∀ k : Fin 128, idx_main_v21 (idx_main_v22 (idx_main_v23 (ix2 p q))) k = ix2 q k := fun k =>
    funext fun a => Fin.ext (by match a with | ⟨0, _⟩ => rfl | ⟨1, _⟩ => rfl)
  rw [val_main_v24_apply, val_main_v17_apply, val_main_v16_apply, val_main_cst_2_apply, val_main_v15_apply,
    val_main_v12_apply, val_main_v4_apply, val_main_v11_apply, val_main_v10_apply, val_main_cst_1_apply,
    val_main_v6_apply, val_main_v14_apply, val_main_v13_apply, val_main_v9_apply, val_main_cst_0_apply,
    val_main_v23_apply, val_main_v22_apply, val_main_v21_apply, val_main_cst_4_apply]
  simp only [l4, r4, l6, r6, i9, i21, val_main_v3_apply, val_main_v2_apply, val_main_v1_apply, val_main_cst_apply,
    val_main_v0_apply, val_main_v5_apply, val_main_v8_apply, val_main_v7_apply, val_main_v20_apply,
    val_main_v19_apply, val_main_cst_3_apply, val_main_v18_apply, Ideal.mulf_def, Ideal.addf_def, Ideal.subf_def,
    Ideal.ofBits_def, Ideal.hostDivf_def, Ideal.hostUnary_log_def]
  rfl

end Cert.ReferenceIdeal.RefValue

end
-- ==== Proof.Domain.lean ====
/-
  What the precondition says, entry by entry.

  The precondition is the conjunction of four statements over whole arrays: |x| < +∞, |μ| < +∞ and |s| < +∞
  everywhere, and s > 0 everywhere. On the extended reals |v| < +∞ says that v is neither infinity, that is, a
  real number; together with s > 0 every scale is a positive real. These are the facts under which the two forms
  of the log-density agree.
-/
import proofs.«147443_j51642686767616_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Domain

open Idealize.ShloMosaic Cert.Pre_finite_inputs Cert.Pre_finite_inputs.Facts

instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- The word of 0.0 denotes 0. -/
theorem ofBits_zero : Ideal.ofBits .f32 0x00000000#32 = (0 : EReal) := by
  simp [Ideal.ofBits, Ideal.ieee]

/-- A one-bit truth value is the word 1 exactly when it is true. -/
theorem ofBool_eq_one (b : Bool) : BitVec.ofBool b = 1#1 ↔ b = true := by cases b <;> decide

/-- An extended real whose absolute value is below +∞ is a real number. -/
theorem real_of_abs_lt_top (v : EReal) (h : Ideal.cmp .olt (max v (-v)) (⊤ : EReal) = 1#1) : ∃ r : ℝ, v = (r : EReal) := by
  have hlt : max v (-v) < ⊤ := of_decide_eq_true ((ofBool_eq_one _).1 h)
  have h1 : v ≠ ⊤ := by rintro rfl; simp at hlt
  have h2 : v ≠ ⊥ := by rintro rfl; simp at hlt
  exact ⟨v.toReal, (EReal.coe_toReal h1 h2).symm⟩

/-- An extended real that compares above 0 is positive. -/
theorem pos_of_gt_zero (v : EReal) (h : Ideal.cmp .ogt v (0 : EReal) = 1#1) : 0 < v :=
  of_decide_eq_true ((ofBool_eq_one _).1 h)

variable [Cert.Pre_finite_inputs.Facts]

/-- The precondition, read entry by entry: the embeddings and the class means are real, the class scales are
    positive reals. -/
theorem entries (x0 : FVec Ideal S32768x128 .f32) (x1 x2 : FVec Ideal S1000x128 .f32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ r : ℝ, 0 < r ∧ x2 i = (r : EReal)) := by
  have h0 := congrFun h ValueIdx.ix0
  dsimp only [fn, fn_part1] at h0
  change IntOp.andi (IntOp.andi (IntOp.andi (Host.reduce IntOp.andi _ _ _ _ ValueIdx.ix0)
    (Host.reduce IntOp.andi _ _ _ _ ValueIdx.ix0)) (Host.reduce IntOp.andi _ _ _ _ ValueIdx.ix0))
    (Host.reduce IntOp.andi _ _ _ _ ValueIdx.ix0) = 1#1 at h0
  obtain ⟨h123, h4⟩ := IntOp.andi_eq_one.1 h0
  obtain ⟨h12, h3⟩ := IntOp.andi_eq_one.1 h123
  obtain ⟨h1, h2⟩ := IntOp.andi_eq_one.1 h12
  -- the two literals spread over the arrays
  have top0 : ∀ i : S32768x128.Idx, broadcastInDim S32768x128 ![] bcast_S_S32768x128 (constant (F := Ideal) S_ .f32 0x7F800000#32) i = (⊤ : EReal) :=
    fun i => (broadcastInDim_apply _ bcast_S_S32768x128 _ i (fun a => a.elim0) (fun a => a.elim0)).trans ofBits_inf
  have top1 : ∀ i : S1000x128.Idx, broadcastInDim S1000x128 ![] bcast_S_S1000x128 (constant (F := Ideal) S_ .f32 0x7F800000#32) i = (⊤ : EReal) :=
    fun i => (broadcastInDim_apply _ bcast_S_S1000x128 _ i (fun a => a.elim0) (fun a => a.elim0)).trans ofBits_inf
  have zero1 : ∀ i : S1000x128.Idx, broadcastInDim S1000x128 ![] bcast_S_S1000x128 (constant (F := Ideal) S_ .f32 0x00000000#32) i = (0 : EReal) :=
    fun i => (broadcastInDim_apply _ bcast_S_S1000x128 _ i (fun a => a.elim0) (fun a => a.elim0)).trans ofBits_zero
  have r0 : ∀ i, ∃ r : ℝ, x0 i = (r : EReal) := fun i => by
    have e := Host.reduce_andi_all _ _ _ _ _ h1 i
    change Ideal.cmp .olt (max (x0 i) (-(x0 i))) (broadcastInDim S32768x128 ![] bcast_S_S32768x128 (constant (F := Ideal) S_ .f32 0x7F800000#32) i) = 1#1 at e
    rw [top0] at e
    exact real_of_abs_lt_top _ e
  have r1 : ∀ i, ∃ r : ℝ, x1 i = (r : EReal) := fun i => by
    have e := Host.reduce_andi_all _ _ _ _ _ h2 i
    change Ideal.cmp .olt (max (x1 i) (-(x1 i))) (broadcastInDim S1000x128 ![] bcast_S_S1000x128 (constant (F := Ideal) S_ .f32 0x7F800000#32) i) = 1#1 at e
    rw [top1] at e
    exact real_of_abs_lt_top _ e
  have r2 : ∀ i, ∃ r : ℝ, x2 i = (r : EReal) := fun i => by
    have e := Host.reduce_andi_all _ _ _ _ _ h3 i
    change Ideal.cmp .olt (max (x2 i) (-(x2 i))) (broadcastInDim S1000x128 ![] bcast_S_S1000x128 (constant (F := Ideal) S_ .f32 0x7F800000#32) i) = 1#1 at e
    rw [top1] at e
    exact real_of_abs_lt_top _ e
  have p2 : ∀ i, 0 < x2 i := fun i => by
    have e := Host.reduce_andi_all _ _ _ _ _ h4 i
    change Ideal.cmp .ogt (x2 i) (broadcastInDim S1000x128 ![] bcast_S_S1000x128 (constant (F := Ideal) S_ .f32 0x00000000#32) i) = 1#1 at e
    rw [zero1] at e
    exact pos_of_gt_zero _ e
  refine ⟨r0, r1, fun i => ?_⟩
  obtain ⟨r, hr⟩ := r2 i
  have hp := p2 i
  rw [hr] at hp
  exact ⟨r, by exact_mod_cast hp, hr⟩

end Cert.Domain

end
-- ==== Proof.lean ====
/-
  A tiled kernel for the pairwise diagonal-Gaussian log-density against its plain array reference.

  For embeddings x (32768 × 128), class means μ and class scales s (1000 × 128 each), entry (b, c) of the result is
      −½ · Σ_d (x_bd − μ_cd)² / s_cd²  −  Σ_d (½·log 2π + log s_cd).
  The reference expands the square and evaluates  −½·(xx − 2·xm + mm) − ln  with two contractions over d. The
  kernel folds −½ into the inverse variances, stacks [−½/s² ; μ/s²] into one table and [x², x] into one row, and
  evaluates a single contraction of length 256 plus a per-class bias, tile by tile over 32 row blocks.

  The two agree exactly when −½ distributes over xx − 2·xm + mm, which on the extended reals needs those sums to be
  real. That holds when x, μ are real and s is a positive real: then 1/s² is real. (At s = 0 the inverse variance
  is +∞ and the two sides differ, and log s leaves its domain.) The precondition states just that, and the proof
  uses it in one place, the law between the two forms of one entry.

  The parts: the law on three rows of length 128; the reference's result read entry by entry as the expanded form;
  the kernel's per-class tables and one tile read entry by entry as the contracted form; the 32 tiles covering the
  output; and the precondition read entry by entry. The kernel's idealization rewrote nothing, so the statement
  that it is the sanctioned idealization has nothing to prove.
-/
import proofs.«147443_j51642686767616_2_alg».proof.Defs
import proofs.«147443_j51642686767616_2_alg».proof.Proof.Gen.Kernel
import proofs.«147443_j51642686767616_2_alg».proof.Proof.Gen.Kernel.Skeleton
import proofs.«147443_j51642686767616_2_alg».proof.Proof.Gen.Kernel.Launch
import proofs.«147443_j51642686767616_2_alg».proof.Proof.Gen.Kernel.Points
import proofs.«147443_j51642686767616_2_alg».proof.Proof.Gen.Kernel.Frame
import proofs.«147443_j51642686767616_2_alg».proof.Proof.Gen.KernelIdeal
import proofs.«147443_j51642686767616_2_alg».proof.Proof.Gen.KernelIdeal.Skeleton
import proofs.«147443_j51642686767616_2_alg».proof.Proof.Gen.KernelIdeal.Launch
import proofs.«147443_j51642686767616_2_alg».proof.Proof.Gen.KernelIdeal.Points
import proofs.«147443_j51642686767616_2_alg».proof.Proof.Gen.KernelIdeal.Frame
import proofs.«147443_j51642686767616_2_alg».proof.Proof.Gen.ReferenceIdeal
import proofs.«147443_j51642686767616_2_alg».proof.Proof.Gen.KernelIdeal.Value
import proofs.«147443_j51642686767616_2_alg».proof.Proof.Gen.ReferenceIdeal.Run
import proofs.«147443_j51642686767616_2_alg».proof.Proof.Gen.ReferenceIdeal.Read
import proofs.«147443_j51642686767616_2_alg».proof.Proof.Gen.Pre_finite_inputs
import proofs.«147443_j51642686767616_2_alg».proof.Proof.OutputArray
import proofs.«147443_j51642686767616_2_alg».proof.Proof.ReferenceValue
import proofs.«147443_j51642686767616_2_alg».proof.Proof.Domain
import Idealize.ShloMosaic.Adequacy
import Idealize.ShloMosaic.Init

noncomputable section

namespace Cert.Proof

open Idealize.ShloMosaic Idealize.SL.Sem Idealize.ShloMosaic.ValueIdx

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and satisfy the precondition, both programs end with the same result array: the
    kernel's is the contracted form entry by entry, the reference's the expanded form, and on real means and
    embeddings and positive real scales the two forms are equal. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  obtain ⟨hx, hm, hs⟩ := Cert.Domain.entries _ _ _ (hpre c)
  funext i
  obtain ⟨p, q, rfl⟩ : ∃ (p : Fin 32768) (q : Fin 1000), i = ix2 p q := ⟨i 0, i 1, eq_ix2 i⟩
  rw [Cert.ReferenceIdeal.RefValue.result_apply]
  exact (Cert.LogDensity.contracted_eq_expanded _ _ _ (fun k => hx _) (fun k => hm _) (fun k => hs _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
